-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x2048x1024 : Shape := ⟨3, ![1, 2048, 1024]⟩
abbrev S2048x1024 : Shape := ⟨2, ![2048, 1024]⟩
abbrev S1x1024 : Shape := ⟨2, ![1, 1024]⟩
abbrev S1x256x1024 : Shape := ⟨3, ![1, 256, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S4x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1x2048x1024, .f32⟩
  | .local _ .vmem, ⟨9, _⟩ => ⟨S1x2048x1024, .f32⟩
  | .local _ .vmem, ⟨10, _⟩ => ⟨S2048x1024, .bf16⟩
  | .local _ .vmem, ⟨11, _⟩ => ⟨S2048x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def k0_cond2 (i : grid0.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_21 : BitVec 32 := 0#32
  let v48 : BitVec 1 := Scalar.cmpi .ne v47 c0_i32_21
  v48

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  h_S1x256x1024 : 0 < S1x256x1024.numel
  shapeCasts_S1x256x1024_S256x1024 : S1x256x1024.ShapeCasts S256x1024
  broadcasts_S1x1024_S256x1024 : S1x1024.Broadcasts S256x1024
  reduces_S256x2048_S256 : S256x2048.Reduces [1] S256
  shapeCasts_S256_S256x1 : S256.ShapeCasts S256x1
  broadcasts_S256x1_S256x2048 : S256x1.Broadcasts S256x2048
  shapeCasts_S2048x1024_S1x2048x1024 : S2048x1024.ShapeCasts S1x2048x1024
  dot_S2048x1024_S1024x1024_S2048x1024_1_1_0_0_n_n_wf : DotDims.WF S2048x1024 S1024x1024 S2048x1024 [1] [1] [0] [0] [] []
  dot_S256x1024_S1024x1024_S256x1024_1_1_0_0_n_n_wf : DotDims.WF S256x1024 S1024x1024 S256x1024 [1] [1] [0] [0] [] []
  dot_S256x1024_S2048x1024_S256x2048_1_1_0_0_n_n_wf : DotDims.WF S256x1024 S2048x1024 S256x2048 [1] [1] [0] [0] [] []
  dot_S256x2048_S256x1024_S2048x1024_0_0_1_1_n_n_wf : DotDims.WF S256x2048 S256x1024 S2048x1024 [0] [0] [1] [1] [] []
  hrank0 : 0 < grid0.rank
  k0_mult1_dvd : ∀ i : grid0.Coords, 256 ∣ (k0_mult1 i).toNat
  k0_off1_inb : ∀ i : grid0.Coords, ∀ a, (k0_off1 i) a + S1x256x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .bf16 = 32 ∨ (Rect.block (s := S4x2048x1024) S1x2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x1024.size a ≤ S4x2048x1024.size a
  hwx0_7 : ∀ i : grid0.Coords, EltTy.bits .f32 = 32 ∨ (Rect.block (s := S4x2048x1024) S1x2048x1024.size (cc0_transform_7 i) (hinb0_7 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S256x1024_S2048x1024_0_0_1_1_n_n : DotDims S256x2048 S256x1024 S2048x1024 where
  lhsContracting := [0]
  rhsContracting := [0]
  lhsNonContracting := [1]
  rhsNonContracting := [1]
  lhsBatch := []
  rhsBatch := []
  wf := dot_S256x2048_S256x1024_S2048x1024_0_0_1_1_n_n_wf

abbrev win0_0 : Pipeline.Window sig grid0 :=
  Pipeline.Window.ofSpec (Memref.whole main_v0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x2048x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_1_1_2_2_0_0_wf : DotDims.WF S4x2048x2048 S4x2048x1024 S4x2048x1024 [1] [1] [2] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_1_1_2_2_0_0 : DotDims S4x2048x2048 S4x2048x1024 S4x2048x1024 where
  lhsContracting := [1]
  rhsContracting := [1]
  lhsNonContracting := [2]
  rhsNonContracting := [2]
  lhsBatch := [0]
  rhsBatch := [0]
  wf := dot_S4x2048x2048_S4x2048x1024_S4x2048x1024_1_1_2_2_0_0_wf

class Facts : Prop extends Facts₀ where

variable [Facts]
-- ==== Proof.KernelPieces.lean ====
/-
  What each control case of the kernel body leaves behind, as values of the blocks it loads, for any float
  instance. The body has three cases by the point's second coordinate `j`: the first point of a batch (`j = 0`) stores
  the batch's keys into the first scratch, resets the running sum in the second scratch to zero and adds its tile's
  step to it; a middle point (`0 < j < 7`) keeps the keys and adds its step; the last point (`j = 7`) adds its step and
  stores the running sum into the output block. Each buffer a case writes is stored whole, so what it holds afterwards
  is the payload of the last store into it.
-/
import proofs.«122240_j18691697672866_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl
theorem hz3 : (![0, 0, 0] : Fin 3 → Nat) = fun _ => 0 := funext fun a => by fin_cases a <;> rfl

variable (c : Dev nD) (i : grid0.Coords)
  (arg2 : Memref sig .tc .vmem S1x2048x1024 .bf16) (harg2 : arg2.IsWhole)
  (arg3 : Memref sig .tc .vmem S1024x1024 .bf16) (harg3 : arg3.IsWhole)
  (arg4 : Memref sig .tc .vmem S1024 .f32) (harg4 : arg4.IsWhole)
  (arg5 : Memref sig .tc .vmem S1024x1024 .bf16) (harg5 : arg5.IsWhole)
  (arg6 : Memref sig .tc .vmem S1024 .f32) (harg6 : arg6.IsWhole)
  (arg7 : Memref sig .tc .vmem S1024x1024 .bf16) (harg7 : arg7.IsWhole)
  (arg8 : Memref sig .tc .vmem S1024 .f32) (harg8 : arg8.IsWhole)
  (arg9 : Memref sig .tc .vmem S1x2048x1024 .f32) (harg9 : arg9.IsWhole)
  (arg10 : Memref sig .tc .vmem S2048x1024 .bf16) (harg10 : arg10.IsWhole)
  (arg11 : Memref sig .tc .vmem S2048x1024 .f32) (harg11 : arg11.IsWhole)
  (x0 : Vec F S1x2048x1024 .bf16) (x1 : Vec F S1024x1024 .bf16) (x2 : Vec F S1024 .f32)
  (x3 : Vec F S1024x1024 .bf16) (x4 : Vec F S1024 .f32) (x5 : Vec F S1024x1024 .bf16) (x6 : Vec F S1024 .f32)
  (xs0 : Vec F S2048x1024 .bf16) (xs1 : Vec F S2048x1024 .f32)

/-- The 256 rows of the batch's block that one grid point works on: rows `256·j … 256·j + 255` at the point's
    second coordinate `j`. -/
abbrev tile (x0 : Vec F S1x2048x1024 .bf16) : Vec F S1x256x1024 .bf16 :=
  View.ld x0 (Rect.unit (s := S1x2048x1024) (k0_off1 i) S1x256x1024.size (k0_off1_inb i))

/-- What one point adds to the running sum held in the second scratch: over the keys `K` it finds in the first
    scratch and the running sum `acc`, the softmax weights of the point's 256 queries against all keys, transposed
    against the point's 256 value rows, added to `acc`. -/
abbrev step (x0 : Vec F S1x2048x1024 .bf16) (x1 : Vec F S1024x1024 .bf16) (x2 : Vec F S1024 .f32)
    (x5 : Vec F S1024x1024 .bf16) (x6 : Vec F S1024 .f32) (K : Vec F S2048x1024 .bf16) (acc : Vec F S2048x1024 .f32) :
    Vec F S2048x1024 .f32 :=
  k0_pay1 (k0_pay6 (tile i x0) x1 x2 K) (k0_pay7 (tile i x0) x5) (k0_pay8 x6) acc

/-- At a batch's first point the first scratch is stored whole with the keys of the batch: the projection of the
    batch's block. -/
theorem keys_first (hc0 : cond0_0 i) (hc1 : ¬cond0_1 i) :
    sout0_A_0 c i arg2 harg2 arg3 harg3 arg4 harg4 arg5 harg5 arg6 harg6 arg7 harg7 arg8 harg8 arg9 harg9 arg10 harg10 arg11 harg11 hc0 hc1 x0 x1 x2 x3 x4 x5 x6 = k0_pay3 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S1024x1024) hz2, View.ld_unit_zero (S := S1024) hz1, View.ld_unit_zero (S := S1x2048x1024) hz3]

/-- At a batch's first point the second scratch is reset to zero and then receives the point's step over the keys
    just stored. -/
theorem acc_first (hc0 : cond0_0 i) (hc1 : ¬cond0_1 i) :
    sout0_A_1 c i arg2 harg2 arg3 harg3 arg4 harg4 arg5 harg5 arg6 harg6 arg7 harg7 arg8 harg8 arg9 harg9 arg10 harg10 arg11 harg11 hc0 hc1 x0 x1 x2 x3 x4 x5 x6 = step i x0 x1 x2 x5 x6 (k0_pay3 x0 x3 x4) k0_pay4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S2048x1024) hz2]
  simp only [View.readCov_unit_zero (S := S2048x1024) _ hz2, View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S1024x1024) hz2, View.ld_unit_zero (S := S1024) hz1, View.ld_unit_zero (S := S1x2048x1024) hz3]
  rfl

/-- At a middle point the second scratch receives the point's step over what the point before left in both. -/
theorem acc_middle (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 hc0 hc1 x0 x1 x2 x3 x4 x5 x6 xs0 xs1 = step i x0 x1 x2 x5 x6 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S1024x1024) hz2, View.ld_unit_zero (S := S1024) hz1, View.ld_unit_zero (S := S1x2048x1024) hz3]
  rfl

/-- At a batch's last point the same step. -/
theorem acc_last (hc0 : ¬cond0_0 i) (hc1 : cond0_1 i) :
    sout0_C_1 c i arg2 harg2 arg3 harg3 arg4 harg4 arg5 harg5 arg6 harg6 arg7 harg7 arg8 harg8 arg9 harg9 arg10 harg10 arg11 harg11 hc0 hc1 x0 x1 x2 x3 x4 x5 x6 xs0 xs1 = step i x0 x1 x2 x5 x6 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S1024x1024) hz2, View.ld_unit_zero (S := S1024) hz1, View.ld_unit_zero (S := S1x2048x1024) hz3]
  rfl

/-- At a batch's last point the output block is stored whole with the running sum after the point's step, under a
    leading unit axis. -/
theorem out_last (hc0 : ¬cond0_0 i) (hc1 : cond0_1 i) :
    out0_C_7 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay2 (step i x0 x1 x2 x5 x6 xs0 xs1) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz3]
  simp only [View.readCov_unit_zero (S := S2048x1024) _ hz2, View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S1024x1024) hz2, View.ld_unit_zero (S := S1024) hz1, View.ld_unit_zero (S := S1x2048x1024) hz3]
  rfl

end Cert.KernelIdeal.Pieces
end
-- ==== Proof.KernelOps.lean ====
/-
  The kernel body's non-pointwise operations read at an index written by coordinates, on the extended reals: its four
  matrix products as plain sums over the contracted coordinate, and its two row reductions (a maximum from `-∞`, a
  sum) as a fold and a sum over the 2048 key positions of one query row.
-/
import proofs.«122240_j18691697672866_1_alg».proof.Proof.Gen.KernelIdeal.Skeleton
import Idealize.ShloMosaic.Lib.ValueIdx
import Idealize.ShloMosaic.PureOps.Ideal.Laws

noncomputable section

open scoped BigOperators

namespace Cert.KernelIdeal.Ops

open Cert.KernelIdeal Cert.KernelIdeal.Gen Idealize.ShloMosaic Idealize.ShloMosaic.ValueIdx

theorem mm_keys_lhs0 (i : S2048x1024.Idx) (q : dot_S2048x1024_S1024x1024_S2048x1024_1_1_0_0_n_n.contr.Idx) : (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem mm_keys_lhs1 (i : S2048x1024.Idx) (q : dot_S2048x1024_S1024x1024_S2048x1024_1_1_0_0_n_n.contr.Idx) : (dot_S2048x1024_S1024x1024_S2048x1024_1_1_0_0_n_n.lhsIdx i q 1).val = (q ⟨0, by decide⟩).val :=
  dot_S2048x1024_S1024x1024_S2048x1024_1_1_0_0_n_n.lhsIdx_val_of_single rfl i q
theorem mm_keys_rhs0 (i : S2048x1024.Idx) (q : dot_S2048x1024_S1024x1024_S2048x1024_1_1_0_0_n_n.contr.Idx) : (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem mm_keys_rhs1 (i : S2048x1024.Idx) (q : dot_S2048x1024_S1024x1024_S2048x1024_1_1_0_0_n_n.contr.Idx) : (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-- The key projection's product: rows of the block against rows of the weight, `out[s, e] = Σ_d l[s, d] · r[e, d]`. -/
theorem mm_keys (l : FVec Ideal S2048x1024 .bf16) (r : FVec Ideal S1024x1024 .bf16) (p : Fin 2048) (q : Fin 1024) :
    matmul dot_S2048x1024_S1024x1024_S2048x1024_1_1_0_0_n_n none l r (constant (F := Ideal) S2048x1024 .f32 0x00000000#32) (ix2 p q)
      = ∑ k : Fin 1024, l (ix2 p k) * r (ix2 q k) := by
  refine (Ideal.matmul_constant_zero_apply dot_S2048x1024_S1024x1024_S2048x1024_1_1_0_0_n_n none l r (ix2 p q)).trans ?_
  rw [← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 p q) ((contrEquiv1 dot_S2048x1024_S1024x1024_S2048x1024_1_1_0_0_n_n 1024 rfl rfl).symm k) = ix2 p k := funext fun a => Fin.ext (by
    match a with
    | ⟨0, _⟩ => exact mm_keys_lhs0 _ _
    | ⟨1, _⟩ => exact (mm_keys_lhs1 _ _).trans hk)
  have er : dot_S2048x1024_S1024x1024_S2048x1024_1_1_0_0_n_n.rhsIdx (ix2 p q) ((contrEquiv1 dot_S2048x1024_S1024x1024_S2048x1024_1_1_0_0_n_n 1024 rfl rfl).symm k) = ix2 q k := funext fun a => Fin.ext (by
    match a with
    | ⟨0, _⟩ => exact mm_keys_rhs0 _ _
    | ⟨1, _⟩ => exact (mm_keys_rhs1 _ _).trans hk)
  rw [el, er]

theorem mm_tile_lhs0 (i : S256x1024.Idx) (q : dot_S256x1024_S1024x1024_S256x1024_1_1_0_0_n_n.contr.Idx) : (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem mm_tile_lhs1 (i : S256x1024.Idx) (q : dot_S256x1024_S1024x1024_S256x1024_1_1_0_0_n_n.contr.Idx) : (dot_S256x1024_S1024x1024_S256x1024_1_1_0_0_n_n.lhsIdx i q 1).val = (q ⟨0, by decide⟩).val :=
  dot_S256x1024_S1024x1024_S256x1024_1_1_0_0_n_n.lhsIdx_val_of_single rfl i q
theorem mm_tile_rhs0 (i : S256x1024.Idx) (q : dot_S256x1024_S1024x1024_S256x1024_1_1_0_0_n_n.contr.Idx) : (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem mm_tile_rhs1 (i : S256x1024.Idx) (q : dot_S256x1024_S1024x1024_S256x1024_1_1_0_0_n_n.contr.Idx) : (dot_S256x1024_S1024x1024_S256x1024_1_1_0_0_n_n.rhsIdx i q 1).val = (q ⟨0, by decide⟩).val :=
  dot_S256x1024_S1024x1024_S256x1024_1_1_0_0_n_n.rhsIdx_val_of_single rfl i q

/-- A tile's projection (queries, values): `out[q, e] = Σ_d l[q, d] · r[e, d]`. -/
theorem mm_tile (l : FVec Ideal S256x1024 .bf16) (r : FVec Ideal S1024x1024 .bf16) (p : Fin 256) (q : Fin 1024) :
    matmul dot_S256x1024_S1024x1024_S256x1024_1_1_0_0_n_n none l r (constant (F := Ideal) S256x1024 .f32 0x00000000#32) (ix2 p q)
      = ∑ k : Fin 1024, l (ix2 p k) * r (ix2 q k) := by
  refine (Ideal.matmul_constant_zero_apply dot_S256x1024_S1024x1024_S256x1024_1_1_0_0_n_n none l r (ix2 p q)).trans ?_
  rw [← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p q) ((contrEquiv1 dot_S256x1024_S1024x1024_S256x1024_1_1_0_0_n_n 1024 rfl rfl).symm k) = ix2 p k := funext fun a => Fin.ext (by
    match a with
    | ⟨0, _⟩ => exact mm_tile_lhs0 _ _
    | ⟨1, _⟩ => exact (mm_tile_lhs1 _ _).trans hk)
  have er : dot_S256x1024_S1024x1024_S256x1024_1_1_0_0_n_n.rhsIdx (ix2 p q) ((contrEquiv1 dot_S256x1024_S1024x1024_S256x1024_1_1_0_0_n_n 1024 rfl rfl).symm k) = ix2 q k := funext fun a => Fin.ext (by
    match a with
    | ⟨0, _⟩ => exact mm_tile_rhs0 _ _
    | ⟨1, _⟩ => exact (mm_tile_rhs1 _ _).trans hk)
  rw [el, er]

theorem mm_scores_lhs0 (i : S256x2048.Idx) (q : dot_S256x1024_S2048x1024_S256x2048_1_1_0_0_n_n.contr.Idx) : (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem mm_scores_lhs1 (i : S256x2048.Idx) (q : dot_S256x1024_S2048x1024_S256x2048_1_1_0_0_n_n.contr.Idx) : (dot_S256x1024_S2048x1024_S256x2048_1_1_0_0_n_n.lhsIdx i q 1).val = (q ⟨0, by decide⟩).val :=
  dot_S256x1024_S2048x1024_S256x2048_1_1_0_0_n_n.lhsIdx_val_of_single rfl i q
theorem mm_scores_rhs0 (i : S256x2048.Idx) (q : dot_S256x1024_S2048x1024_S256x2048_1_1_0_0_n_n.contr.Idx) : (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem mm_scores_rhs1 (i : S256x2048.Idx) (q : dot_S256x1024_S2048x1024_S256x2048_1_1_0_0_n_n.contr.Idx) : (dot_S256x1024_S2048x1024_S256x2048_1_1_0_0_n_n.rhsIdx i q 1).val = (q ⟨0, by decide⟩).val :=
  dot_S256x1024_S2048x1024_S256x2048_1_1_0_0_n_n.rhsIdx_val_of_single rfl i q

/-- The scores' product: a tile's queries against all keys, `out[q, k] = Σ_e l[q, e] · r[k, e]`. -/
theorem mm_scores (l : FVec Ideal S256x1024 .bf16) (r : FVec Ideal S2048x1024 .bf16) (p : Fin 256) (q : Fin 2048) :
    matmul dot_S256x1024_S2048x1024_S256x2048_1_1_0_0_n_n none l r (constant (F := Ideal) S256x2048 .f32 0x00000000#32) (ix2 p q)
      = ∑ k : Fin 1024, l (ix2 p k) * r (ix2 q k) := by
  refine (Ideal.matmul_constant_zero_apply dot_S256x1024_S2048x1024_S256x2048_1_1_0_0_n_n none l r (ix2 p q)).trans ?_
  rw [← Equiv.sum_comp (contrEquiv1 dot_S256x1024_S2048x1024_S256x2048_1_1_0_0_n_n 1024 rfl rfl).symm]
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 p q) ((contrEquiv1 dot_S256x1024_S2048x1024_S256x2048_1_1_0_0_n_n 1024 rfl rfl).symm k) = ix2 p k := funext fun a => Fin.ext (by
    match a with
    | ⟨0, _⟩ => exact mm_scores_lhs0 _ _
    | ⟨1, _⟩ => exact (mm_scores_lhs1 _ _).trans hk)
  have er : dot_S256x1024_S2048x1024_S256x2048_1_1_0_0_n_n.rhsIdx (ix2 p q) ((contrEquiv1 dot_S256x1024_S2048x1024_S256x2048_1_1_0_0_n_n 1024 rfl rfl).symm k) = ix2 q k := funext fun a => Fin.ext (by
    match a with
    | ⟨0, _⟩ => exact mm_scores_rhs0 _ _
    | ⟨1, _⟩ => exact (mm_scores_rhs1 _ _).trans hk)
  rw [el, er]

theorem mm_agg_lhs0 (i : S2048x1024.Idx) (q : dot_S256x2048_S256x1024_S2048x1024_0_0_1_1_n_n.contr.Idx) : (dot_S256x2048_S256x1024_S2048x1024_0_0_1_1_n_n.lhsIdx i q 0).val = (q ⟨0, by decide⟩).val :=
  dot_S256x2048_S256x1024_S2048x1024_0_0_1_1_n_n.lhsIdx_val_of_single rfl i q
theorem mm_agg_lhs1 (i : S2048x1024.Idx) (q : dot_S256x2048_S256x1024_S2048x1024_0_0_1_1_n_n.contr.Idx) : (dot_S256x2048_S256x1024_S2048x1024_0_0_1_1_n_n.lhsIdx i q 1).val = (i 0).val := by
  unfold DotDims.lhsIdx
  rw [dif_neg (show ¬(1 : Fin S256x2048.rank) ∈ dot_S256x2048_S256x1024_S2048x1024_0_0_1_1_n_n.lhsBatch by decide), dif_pos (show (1 : Fin S256x2048.rank) ∈ dot_S256x2048_S256x1024_S2048x1024_0_0_1_1_n_n.lhsNonContracting by decide)]
  rfl
theorem mm_agg_rhs0 (i : S2048x1024.Idx) (q : dot_S256x2048_S256x1024_S2048x1024_0_0_1_1_n_n.contr.Idx) : (dot_S256x2048_S256x1024_S2048x1024_0_0_1_1_n_n.rhsIdx i q 0).val = (q ⟨0, by decide⟩).val :=
  dot_S256x2048_S256x1024_S2048x1024_0_0_1_1_n_n.rhsIdx_val_of_single rfl i q
theorem mm_agg_rhs1 (i : S2048x1024.Idx) (q : dot_S256x2048_S256x1024_S2048x1024_0_0_1_1_n_n.contr.Idx) : (dot_S256x2048_S256x1024_S2048x1024_0_0_1_1_n_n.rhsIdx i q 1).val = (i 1).val := by
  unfold DotDims.rhsIdx
  rw [dif_neg (show ¬(1 : Fin S256x1024.rank) ∈ dot_S256x2048_S256x1024_S2048x1024_0_0_1_1_n_n.rhsBatch by decide), dif_pos (show (1 : Fin S256x1024.rank) ∈ dot_S256x2048_S256x1024_S2048x1024_0_0_1_1_n_n.rhsNonContracting by decide)]
  rfl

/-- The transposed aggregation: both operands contracted over the tile's query axis, `out[k, d] = Σ_q l[q, k] · r[q, d]`. -/
theorem mm_agg (l : FVec Ideal S256x2048 .bf16) (r : FVec Ideal S256x1024 .bf16) (p : Fin 2048) (q : Fin 1024) :
    matmul dot_S256x2048_S256x1024_S2048x1024_0_0_1_1_n_n none l r (constant (F := Ideal) S2048x1024 .f32 0x00000000#32) (ix2 p q)
      = ∑ k : Fin 256, l (ix2 k p) * r (ix2 k q) := by
  refine (Ideal.matmul_constant_zero_apply dot_S256x2048_S256x1024_S2048x1024_0_0_1_1_n_n none l r (ix2 p q)).trans ?_
  rw [← Equiv.sum_comp (contrEquiv1 dot_S256x2048_S256x1024_S2048x1024_0_0_1_1_n_n 256 rfl rfl).symm]
  refine Finset.sum_congr rfl fun k _ => ?_
  have hk := contrEquiv1_symm_val dot_S256x2048_S256x1024_S2048x1024_0_0_1_1_n_n 256 rfl rfl k
  have el : dot_S256x2048_S256x1024_S2048x1024_0_0_1_1_n_n.lhsIdx (ix2 p q) ((contrEquiv1 dot_S256x2048_S256x1024_S2048x1024_0_0_1_1_n_n 256 rfl rfl).symm k) = ix2 k p := funext fun a => Fin.ext (by
    match a with
    | ⟨0, _⟩ => exact (mm_agg_lhs0 _ _).trans hk
    | ⟨1, _⟩ => exact mm_agg_lhs1 _ _)
  have er : dot_S256x2048_S256x1024_S2048x1024_0_0_1_1_n_n.rhsIdx (ix2 p q) ((contrEquiv1 dot_S256x2048_S256x1024_S2048x1024_0_0_1_1_n_n 256 rfl rfl).symm k) = ix2 k q := funext fun a => Fin.ext (by
    match a with
    | ⟨0, _⟩ => exact (mm_agg_rhs0 _ _).trans hk
    | ⟨1, _⟩ => exact mm_agg_rhs1 _ _)
  rw [el, er]

/-- Row `q` with the key coordinate `k` put back is `(q, k)`. -/
theorem lift_row (h : S256x2048.Reduces [1] S256) (q : Fin 256) (k : Fin (S256x2048.size 1)) :
    h.lift (ix1 q) k = ix2 q (⟨k.val, k.isLt⟩ : Fin 2048) := by
  funext c; apply Fin.ext
  fin_cases c <;> rfl

/-- The maximum of a query row over the keys, from `-∞`: the fold of `max` over the 2048 key positions. -/
theorem rowmax_apply (v : FVec Ideal S256x2048 .f32) (h : S256x2048.Reduces [1] S256) (hφ : FTy.f32 = FTy.f32 ∨ FTy.f32 = FTy.bf16)
    (hacc : (0xFF800000#32 : BitVec 32) = 0xFF800000#32) (q : Fin 256) :
    multiReduction .maximumf [1] S256 v 0xFF800000#32 h hφ hacc (ix1 q)
      = (Finset.univ : Finset (Fin 2048)).fold max (Ideal.ofBits .f32 0xFF800000#32) (fun k => v (ix2 q k)) := by
  refine (Ideal.multiReduction_maximumf_single v 0xFF800000#32 h hφ hacc (ix1 q)).trans ?_
  have hf : (v ∘ h.lift (ix1 q)) = fun k : Fin 2048 => v (ix2 q k) := funext fun k => congrArg v (lift_row h q k)
  exact congrArg (fun f => Finset.fold max (Ideal.ofBits .f32 0xFF800000#32) f (Finset.univ : Finset (Fin 2048))) hf

/-- The sum of a query row over the keys: the sum over the 2048 key positions. -/
theorem rowsum_apply (v : FVec Ideal S256x2048 .f32) (h : S256x2048.Reduces [1] S256) (hφ : FTy.f32 = FTy.f32 ∨ FTy.f32 = FTy.bf16)
    (hacc : (0x00000000#32 : BitVec 32) = 0x00000000#32) (q : Fin 256) :
    multiReduction .add [1] S256 v 0x00000000#32 h hφ hacc (ix1 q) = ∑ k : Fin 2048, v (ix2 q k) := by
  refine (Ideal.multiReduction_add_single v 0x00000000#32 h hφ hacc (ix1 q)).trans ?_
  exact Finset.sum_congr rfl fun k _ => congrArg v (lift_row h q k)

/-- The exponential of a vector, read at an index. -/
theorem exp_apply {s : Shape} {φ : FTy} (v : FVec Ideal s φ) (i : s.Idx) : exp v i = Ideal.exp (v i) := rfl

end Cert.KernelIdeal.Ops

end
-- ==== Proof.Spec.lean ====
/-
  The mathematics of the kernel, free of any program: fused query / key / value projections, scaled dot-product
  scores, a softmax over the keys, and the TRANSPOSED aggregation `out[k, d] = Σ_q weights[q, k] · v[q, d]`, for one
  batch of 2048 rows of width 1024, on the extended reals.

  Two arrangements of the one sum over the queries meet here. The reference sums over all 2048 queries at once. The
  kernel walks the queries in eight tiles of 256 rows and adds each tile's partial sum to a running total; addition
  of extended reals is commutative and associative, so the eight partial sums add up to the whole sum
  (`sum_rows`), whatever the values — no finiteness is used. The kernel scales the scores by the constant `1/32`
  where the reference divides by `sqrt 1024`: the same function on every extended real (`div_sqrt_1024`).
-/
import Idealize.ShloMosaic.PureOps.Ideal

noncomputable section

open scoped BigOperators

namespace Cert.Attn

open Idealize.ShloMosaic

/-- A linear layer `y[s, e] = (Σ_d x[s, d] · W[e, d]) + b[e]` over rows of width 1024. -/
def lin {n : ℕ} (x : Fin n → Fin 1024 → EReal) (W : Fin 1024 → Fin 1024 → EReal) (b : Fin 1024 → EReal)
    (s : Fin n) (e : Fin 1024) : EReal :=
  (∑ d : Fin 1024, x s d * W e d) + b e

/-- One query row's scores against every key row, scaled by the constant `0.03125 = 1/32`. -/
def score (Qrow : Fin 1024 → EReal) (K : Fin 2048 → Fin 1024 → EReal) (k : Fin 2048) : EReal :=
  (∑ e : Fin 1024, Qrow e * K k e) * Ideal.ofBits .f32 0x3D000000#32

/-- The maximum of a row of scores, taken from `-∞` (and once more against `-∞`, as both programs do). -/
def rowMax (s : Fin 2048 → EReal) : EReal :=
  max (Ideal.ofBits .f32 0xFF800000#32) (Finset.univ.fold max (Ideal.ofBits .f32 0xFF800000#32) s)

/-- The softmax of a row of scores: `exp (s k - max) / Σ_k' exp (s k' - max)`. -/
def softmax (s : Fin 2048 → EReal) (k : Fin 2048) : EReal :=
  Ideal.div (Ideal.exp (s k - rowMax s)) (∑ k' : Fin 2048, Ideal.exp (s k' - rowMax s))

/-- The weight of query row `q` on key row `k`, computed from the query's row of `X` and the keys `K`. -/
def weight (Xq : Fin 1024 → EReal) (Wq : Fin 1024 → Fin 1024 → EReal) (bq : Fin 1024 → EReal)
    (K : Fin 2048 → Fin 1024 → EReal) (k : Fin 2048) : EReal :=
  softmax (score (fun e => (∑ d : Fin 1024, Xq d * Wq e d) + bq e) K) k

/-- Query `q`'s contribution to output element `(k, d)`: its weight on key `k` times its value at `d`. -/
def term (X : Fin 2048 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (q k : Fin 2048) (d : Fin 1024) : EReal :=
  weight (X q) Wq bq (lin X Wk bk) k * lin X Wv bv q d

/-- The attention output of one batch: the sum of every query's contribution. -/
def attn (X : Fin 2048 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (k : Fin 2048) (d : Fin 1024) : EReal :=
  ∑ q : Fin 2048, term X Wq bq Wk bk Wv bv q k d

/-- Row `q'` of the `j`-th tile of 256 rows. -/
def row (j : ℕ) (q' : Fin 256) : Fin 2048 := ⟨(256 * j + q'.val) % 2048, Nat.mod_lt _ (by norm_num)⟩

/-- The partial sum of the `j`-th tile's 256 queries. -/
def part (X : Fin 2048 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (j : ℕ) (k : Fin 2048) (d : Fin 1024) : EReal :=
  ∑ q' : Fin 256, term X Wq bq Wk bk Wv bv (row j q') k d

/-- A sum over 2048 rows is the sum, over the eight tiles, of the sums over each tile's 256 rows. -/
theorem sum_rows {M : Type*} [AddCommMonoid M] (f : Fin 2048 → M) :
    ∑ q : Fin 2048, f q = ∑ j ∈ Finset.range 8, ∑ q' : Fin 256, f (row j q') := by
  rw [← Fin.sum_univ_eq_sum_range (fun j => ∑ q' : Fin 256, f (row j q')) 8]
  have h := Equiv.sum_comp (finProdFinEquiv : Fin 8 × Fin 256 ≃ Fin (8 * 256)) (f : Fin (8 * 256) → M)
  rw [← h, Fintype.sum_prod_type]
  refine Finset.sum_congr rfl fun j _ => Finset.sum_congr rfl fun q' _ => congrArg f (Fin.ext ?_)
  show q'.val + 256 * j.val = (256 * j.val + q'.val) % 2048
  have := j.isLt; have := q'.isLt; omega

/-- The whole attention sum is the eight tiles' partial sums added up. -/
theorem attn_eq_sum_parts (X : Fin 2048 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (k : Fin 2048) (d : Fin 1024) :
    attn X Wq bq Wk bk Wv bv k d = ∑ j ∈ Finset.range 8, part X Wq bq Wk bk Wv bv j k d :=
  sum_rows fun q => term X Wq bq Wk bk Wv bv q k d

/-- The word `0x44800000` denotes 1024. -/
theorem ofBits_1024 : Ideal.ofBits .f32 0x44800000#32 = ((1024 : ℝ) : EReal) := by
  simp [Ideal.ofBits, Ideal.ieee, -EReal.coe_mul]; norm_num

/-- The word `0x3D000000` denotes 1/32. -/
theorem ofBits_inv32 : Ideal.ofBits .f32 0x3D000000#32 = ((1 / 32 : ℝ) : EReal) := by
  simp [Ideal.ofBits, Ideal.ieee, -EReal.coe_mul]; norm_num

/-- The word `0x00000000` denotes 0. -/
theorem ofBits_zero : Ideal.ofBits .f32 0x00000000#32 = 0 := by
  simp [Ideal.ofBits, Ideal.ieee]

/-- `sqrt 1024 = 32`: 1024 is a perfect square. -/
theorem sqrt_1024 : Real.sqrt 1024 = 32 := by
  rw [show (1024 : ℝ) = 32 ^ 2 by norm_num]; exact Real.sqrt_sq (by norm_num)

/-- Dividing by `sqrt 1024` is multiplying by the constant `1/32`, on every extended real. -/
theorem div_sqrt_1024 (x : EReal) :
    Ideal.div x (Ideal.sqrt (Ideal.ofBits .f32 0x44800000#32)) = x * Ideal.ofBits .f32 0x3D000000#32 := by
  rw [ofBits_1024, ofBits_inv32, Ideal.sqrt_coe, if_neg (by norm_num), sqrt_1024, Ideal.div_coe (by norm_num)]

end Cert.Attn

end
-- ==== Proof.LibKeepdims.lean ====
/-
  Layout operations of a `sum(..., keepdims=True)` read at an index written by coordinates.

  A row sum kept as a column is a vector of extent `a` cast to shape `[a, 1]`; a column used against a matrix is
  `[a, 1]` broadcast to `[a, b]`; a total kept as a `[1, 1]` block is a vector of extent `1` cast to `[1, 1]`.
  Each reads its operand at the evident coordinate: the cast keeps the row-major position, the broadcast repeats the
  one column.
-/
import Idealize.ShloMosaic.Lib.Pipeline.Value
import Idealize.ShloMosaic.Lib.ValueIdx

namespace Cert.LibKeepdims

open Idealize.ShloMosaic Idealize.ShloMosaic.ValueIdx

variable {α : Type}

/-- A vector of extent `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector of extent `1` cast to the block shape `[1, 1]` reads its one element, wherever it is read. -/
theorem shapeCast_1_11_apply (x : (⟨1, ![1]⟩ : Shape).Idx → α) (h : (⟨1, ![1]⟩ : Shape).ShapeCasts ⟨2, ![1, 1]⟩)
    (y : (⟨2, ![1, 1]⟩ : Shape).Idx) : shapeCast ⟨2, ![1, 1]⟩ x h y = x (ix1 (0 : Fin 1)) :=
  shapeCast_apply x h _ _ (by
    have h0 : (y 0).val < 1 := idx2_lt0 y
    have h1 : (y 1).val < 1 := idx2_lt1 y
    rw [Shape.rowMajor_val_two, Shape.rowMajor_val_one]
    show (0 : ℕ) = (y 0).val * 1 + (y 1).val
    omega)

/-- The `[1, 1]` block has one index. -/
theorem idx11_eq (y y' : (⟨2, ![1, 1]⟩ : Shape).Idx) : y = y' := by
  funext d
  apply Fin.ext
  match d with
  | ⟨0, _⟩ => show (y 0).val = (y' 0).val; have := idx2_lt0 y; have := idx2_lt0 y'; omega
  | ⟨1, _⟩ => show (y 1).val = (y' 1).val; have := idx2_lt1 y; have := idx2_lt1 y'; omega

end Cert.LibKeepdims
-- ==== Proof.KernelPay.lean ====
/-
  The kernel body's stored values read at an index written by coordinates, on the extended reals: the keys a batch's
  first point stores, the softmax weights of a tile's queries against all keys, the tile's values, and what one point
  adds to the running sum — each the textbook formula of the blocks it loads.
-/
import proofs.«122240_j18691697672866_1_alg».proof.Proof.KernelOps
import proofs.«122240_j18691697672866_1_alg».proof.Proof.Spec
import proofs.«122240_j18691697672866_1_alg».proof.Proof.LibKeepdims
import Idealize.ShloMosaic.Lib.ValueLayout
import Idealize.ShloMosaic.Lib.Pipeline.Value

noncomputable section

open scoped BigOperators

namespace Cert.KernelIdeal.Pay

open Cert.KernelIdeal Cert.KernelIdeal.Gen Cert.KernelIdeal.Ops Idealize.ShloMosaic Idealize.ShloMosaic.ValueIdx Cert.Attn Cert.LibKeepdims

/-- The keys: the linear layer of the batch's block under the key weight and bias. -/
theorem keys_apply (x0 : Vec Ideal S1x2048x1024 .bf16) (x3 : Vec Ideal S1024x1024 .bf16) (x4 : Vec Ideal S1024 .f32)
    (s : Fin 2048) (e : Fin 1024) :
    k0_pay3 (F := Ideal) x0 x3 x4 (ix2 s e)
      = lin (fun s d => x0 (ix3 (0 : Fin 1) s d)) (fun e d => x3 (ix2 e d)) (fun e => x4 (ix1 e)) s e := by
  unfold k0_pay3 lin
  simp only [shapeCast_self, truncf_apply, addf_apply, mm_keys, broadcastTo_1b_ab_apply, shapeCast_a_1a_apply, shapeCast_1ab_ab_apply]

/-- The softmax of a tile's scores, as the body writes it — the row maximum taken from `-∞` and once more against `-∞`,
    kept as a column and broadcast back, subtracted, exponentiated, divided by the row sum kept and broadcast the same
    way — read at `(q, k)`: the softmax of query row `q` at key `k`. -/
theorem softmax_vec (S : FVec Ideal S256x2048 .f32) (h : S256x2048.Reduces [1] S256) (hφ : FTy.f32 = FTy.f32 ∨ FTy.f32 = FTy.bf16)
    (hm : (0xFF800000#32 : BitVec 32) = 0xFF800000#32) (ha : (0x00000000#32 : BitVec 32) = 0x00000000#32)
    (h1 : S256.ShapeCasts S256x1) (h2 : S256x1.Broadcasts S256x2048) (q : Fin 256) (k : Fin 2048) :
    divf (exp (subf S (broadcastTo S256x2048 (shapeCast S256x1 (maximumf (broadcast S256 (Scalar.ofBits .f32 0xFF800000#32)) (multiReduction .maximumf [1] S256 S 0xFF800000#32 h hφ hm)) h1) h2)))
      (broadcastTo S256x2048 (shapeCast S256x1 (multiReduction .add [1] S256 (exp (subf S (broadcastTo S256x2048 (shapeCast S256x1 (maximumf (broadcast S256 (Scalar.ofBits .f32 0xFF800000#32)) (multiReduction .maximumf [1] S256 S 0xFF800000#32 h hφ hm)) h1) h2))) 0x00000000#32 h hφ ha) h1) h2) (ix2 q k)
    = softmax (fun k => S (ix2 q k)) k := by
  unfold softmax rowMax
  simp only [divf_apply, exp_apply, subf_apply, maximumf_apply, broadcast_apply, broadcastTo_a1_ab_apply, shapeCast_a_a1_apply]
  rw [rowsum_apply]
  simp only [exp_apply, subf_apply, maximumf_apply, broadcast_apply, broadcastTo_a1_ab_apply, shapeCast_a_a1_apply]
  rw [rowmax_apply]
  rfl

/-- The weights: the softmax, over the keys, of the scaled scores of the tile's query row `q`. -/
theorem weights_apply (v6 : Vec Ideal S1x256x1024 .bf16) (x1 : Vec Ideal S1024x1024 .bf16) (x2 : Vec Ideal S1024 .f32)
    (K : Vec Ideal S2048x1024 .bf16) (q : Fin 256) (k : Fin 2048) :
    k0_pay6 (F := Ideal) v6 x1 x2 K (ix2 q k)
      = weight (fun d => v6 (ix3 (0 : Fin 1) q d)) (fun e d => x1 (ix2 e d)) (fun e => x2 (ix1 e)) (fun k e => K (ix2 k e)) k := by
  unfold k0_pay6
  refine (softmax_vec _ _ _ _ _ _ _ q k).trans ?_
  unfold weight
  refine congrArg (fun s => softmax s k) (funext fun k' => ?_)
  unfold score k0_pay5
  simp only [shapeCast_self, mulf_apply, broadcast_apply, truncf_apply, addf_apply, mm_scores, mm_tile,
    broadcastTo_1b_ab_apply, shapeCast_a_1a_apply, shapeCast_1ab_ab_apply]
  rfl

/-- The values of the tile's row `q`, bias included. -/
theorem values_apply (v6 : Vec Ideal S1x256x1024 .bf16) (x5 : Vec Ideal S1024x1024 .bf16) (x6 : Vec Ideal S1024 .f32)
    (q : Fin 256) (d : Fin 1024) :
    k0_pay7 (F := Ideal) v6 x5 (ix2 q d) + k0_pay8 (F := Ideal) x6 (ix2 q d)
      = (∑ e : Fin 1024, v6 (ix3 (0 : Fin 1) q e) * x5 (ix2 d e)) + x6 (ix1 d) := by
  unfold k0_pay7 k0_pay8 k0_pay5
  simp only [shapeCast_self, mm_tile, broadcastTo_1b_ab_apply, shapeCast_a_1a_apply, shapeCast_1ab_ab_apply]

/-- One point's addition to the running sum at `(k, d)`: the weights transposed against the values, summed over the
    tile's 256 queries. -/
theorem step_apply (w : FVec Ideal S256x2048 .f32) (v33 v36 : FVec Ideal S256x1024 .f32) (acc : Vec Ideal S2048x1024 .f32)
    (k : Fin 2048) (d : Fin 1024) :
    k0_pay1 (F := Ideal) w v33 v36 acc (ix2 k d)
      = acc (ix2 k d) + ∑ q : Fin 256, w (ix2 q k) * (v33 (ix2 q d) + v36 (ix2 q d)) := by
  unfold k0_pay1
  simp only [shapeCast_self, addf_apply, truncf_apply, mm_agg]

/-- The output block is the running sum under a leading unit axis. -/
theorem out_apply (v : Vec Ideal S2048x1024 .f32) (u : Fin 1) (k : Fin 2048) (d : Fin 1024) :
    k0_pay2 (F := Ideal) v (ix3 u k d) = v (ix2 k d) := by
  unfold k0_pay2
  simp only [shapeCast_ab_1ab_apply]

/-- The reset value of the running sum is zero. -/
theorem zero_apply (k : Fin 2048) (d : Fin 1024) : k0_pay4 (F := Ideal) (ix2 k d) = 0 := by
  unfold k0_pay4
  simp only [shapeCast_self, broadcast_apply]
  exact Ideal.ofBits_zero_f32

end Cert.KernelIdeal.Pay
end
-- ==== Proof.KernelValue.lean ====
/-
  The kernel's result array. Across the eight points of a batch the first scratch holds the batch's keys (stored at the
  batch's first point) and the second scratch the running sum of the tiles' partial attention sums (reset at the first
  point, one tile added per point); the batch's last point stores the running sum into the output block, the only
  block written back. By induction over the points the running sum after the `j`-th point of a batch is the sum of the
  first `j + 1` partial sums, so what is written back is the whole attention sum of the batch, and the four batches'
  blocks cover the result array.
-/
import proofs.«122240_j18691697672866_1_alg».proof.Proof.Gen.KernelIdeal.Value
import proofs.«122240_j18691697672866_1_alg».proof.Proof.KernelPieces
import proofs.«122240_j18691697672866_1_alg».proof.Proof.KernelPay
import Idealize.ShloMosaic.Lib.StableHlo.Run
import Idealize.ShloMosaic.Lib.Tactic

set_option maxRecDepth 16384

noncomputable section

open scoped BigOperators

namespace Cert.KernelIdeal.Val

open Cert.KernelIdeal Cert.KernelIdeal.Gen Cert.KernelIdeal.Value Cert.KernelIdeal.Pieces Cert.KernelIdeal.Pay
open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (ρ : Dev nD → PrngReg)

/-- Batch `b` of the argument `x`, by rows and columns (the batch number read modulo 4). -/
def X (c : Dev nD) (b : ℕ) : Fin 2048 → Fin 1024 → EReal :=
  fun s d => m ((c : Thread nD τ).loc main_arg0) (ix3 (⟨b % 4, Nat.mod_lt _ (by norm_num)⟩ : Fin 4) s d)
/-- The query weight and bias, the key weight and bias, the value weight and bias, by coordinates. -/
def Wq (c : Dev nD) : Fin 1024 → Fin 1024 → EReal := fun e d => m ((c : Thread nD τ).loc main_arg1) (ix2 e d)
def bq (c : Dev nD) : Fin 1024 → EReal := fun e => m ((c : Thread nD τ).loc main_arg2) (ix1 e)
def Wk (c : Dev nD) : Fin 1024 → Fin 1024 → EReal := fun e d => m ((c : Thread nD τ).loc main_arg3) (ix2 e d)
def bk (c : Dev nD) : Fin 1024 → EReal := fun e => m ((c : Thread nD τ).loc main_arg4) (ix1 e)
def Wv (c : Dev nD) : Fin 1024 → Fin 1024 → EReal := fun e d => m ((c : Thread nD τ).loc main_arg5) (ix2 e d)
def bv (c : Dev nD) : Fin 1024 → EReal := fun e => m ((c : Thread nD τ).loc main_arg6) (ix1 e)

/-- The printed index maps over the grid: the `x` block and the output block of a point are its batch's, every
    weight and bias block is the whole array, and a point's second coordinate is its number modulo 8. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) = t.val / 8 ∧ win0_7.index t (1 : Fin 3) = 0 ∧ win0_7.index t (2 : Fin 3) = 0
    ∧ ((grid0.coords t) 1).val = t.val % 8 :=
  (by decide +kernel : ∀ t : Fin grid0.N, _)

/-- The region finds each converted array holding the argument's values: a change of format is the identity. -/
theorem V_v0 (c : Dev nD) : (V m c main_v0 : S4x2048x1024.Idx → EReal) = m ((c : Thread nD τ).loc main_arg0) := by
  dsimp only [V, hostOps0]; after_results; rfl
theorem V_v1 (c : Dev nD) : (V m c main_v1 : S1024x1024.Idx → EReal) = m ((c : Thread nD τ).loc main_arg1) := by
  dsimp only [V, hostOps0]; after_results; rfl
theorem V_v2 (c : Dev nD) : (V m c main_v2 : S1024x1024.Idx → EReal) = m ((c : Thread nD τ).loc main_arg3) := by
  dsimp only [V, hostOps0]; after_results; rfl
theorem V_v3 (c : Dev nD) : (V m c main_v3 : S1024x1024.Idx → EReal) = m ((c : Thread nD τ).loc main_arg5) := by
  dsimp only [V, hostOps0]; after_results; rfl

/-- The `x` block of point `t` is batch `t / 8`. -/
theorem iblk0_apply (c : Dev nD) (t : Fin cfg0.N) (s : Fin 2048) (d : Fin 1024) :
    iblk m c 0 t (ix3 (0 : Fin 1) s d) = X m c (t.val / 8) s d := by
  have hN : t.val < 32 := lt_of_lt_of_eq t.isLt (show cfg0.N = 32 from N_0)
  obtain ⟨e0, e1, e2, -⟩ := idx_facts t
  unfold iblk
  rw [View.read_apply]
  show V m c main_v0 (((cfg0.win 0).blk t).view.emb (ix3 (0 : Fin 1) s d)) = _
  rw [V_v0]
  unfold X
  refine congrArg (m ((c : Thread nD τ).loc main_arg0)) (funext fun a => Fin.ext ?_)
  match a with
  | ⟨0, _⟩ => show win0_0.index t (0 : Fin 3) * 1 + 1 * 0 = (t.val / 8) % 4; omega
  | ⟨1, _⟩ => show win0_0.index t (1 : Fin 3) * 2048 + 1 * s.val = s.val; omega
  | ⟨2, _⟩ => show win0_0.index t (2 : Fin 3) * 1024 + 1 * d.val = d.val; omega

/-- Every point's query-weight block is the whole weight. -/
theorem iblk1_apply (c : Dev nD) (t : Fin cfg0.N) (e : Fin 1024) (d : Fin 1024) :
    iblk m c 1 t (ix2 e d) = Wq m c e d := by
  have hf : win0_1.index t (0 : Fin 2) = 0 ∧ win0_1.index t (1 : Fin 2) = 0 := by
    obtain ⟨-, -, -, f10, f11, f2, f30, f31, f4, f50, f51, f6, -⟩ := idx_facts t
    exact ⟨f10, f11⟩
  unfold iblk
  rw [View.read_apply]
  show V m c main_v1 (((cfg0.win 1).blk t).view.emb (ix2 e d)) = _
  rw [V_v1]
  unfold Wq
  refine congrArg (m ((c : Thread nD τ).loc main_arg1)) (funext fun a => Fin.ext ?_)
  match a with
  | ⟨0, _⟩ => show win0_1.index t (0 : Fin 2) * 1024 + 1 * e.val = e.val; omega
  | ⟨1, _⟩ => show win0_1.index t (1 : Fin 2) * 1024 + 1 * d.val = d.val; omega

/-- Every point's query-bias block is the whole bias. -/
theorem iblk2_apply (c : Dev nD) (t : Fin cfg0.N) (e : Fin 1024) :
    iblk m c 2 t (ix1 e) = bq m c e := by
  have hf : win0_2.index t (0 : Fin 1) = 0 := by
    obtain ⟨-, -, -, f10, f11, f2, f30, f31, f4, f50, f51, f6, -⟩ := idx_facts t
    exact f2
  unfold iblk
  rw [View.read_apply]
  show V m c main_arg2 (((cfg0.win 2).blk t).view.emb (ix1 e)) = _
  rw [V_main_arg2]
  unfold bq
  refine congrArg (m ((c : Thread nD τ).loc main_arg2)) (funext fun a => Fin.ext ?_)
  match a with
  | ⟨0, _⟩ => show win0_2.index t (0 : Fin 1) * 1024 + 1 * e.val = e.val; omega

/-- Every point's key-weight block is the whole weight. -/
theorem iblk3_apply (c : Dev nD) (t : Fin cfg0.N) (e : Fin 1024) (d : Fin 1024) :
    iblk m c 3 t (ix2 e d) = Wk m c e d := by
  have hf : win0_3.index t (0 : Fin 2) = 0 ∧ win0_3.index t (1 : Fin 2) = 0 := by
    obtain ⟨-, -, -, f10, f11, f2, f30, f31, f4, f50, f51, f6, -⟩ := idx_facts t
    exact ⟨f30, f31⟩
  unfold iblk
  rw [View.read_apply]
  show V m c main_v2 (((cfg0.win 3).blk t).view.emb (ix2 e d)) = _
  rw [V_v2]
  unfold Wk
  refine congrArg (m ((c : Thread nD τ).loc main_arg3)) (funext fun a => Fin.ext ?_)
  match a with
  | ⟨0, _⟩ => show win0_3.index t (0 : Fin 2) * 1024 + 1 * e.val = e.val; omega
  | ⟨1, _⟩ => show win0_3.index t (1 : Fin 2) * 1024 + 1 * d.val = d.val; omega

/-- Every point's key-bias block is the whole bias. -/
theorem iblk4_apply (c : Dev nD) (t : Fin cfg0.N) (e : Fin 1024) :
    iblk m c 4 t (ix1 e) = bk m c e := by
  have hf : win0_4.index t (0 : Fin 1) = 0 := by
    obtain ⟨-, -, -, f10, f11, f2, f30, f31, f4, f50, f51, f6, -⟩ := idx_facts t
    exact f4
  unfold iblk
  rw [View.read_apply]
  show V m c main_arg4 (((cfg0.win 4).blk t).view.emb (ix1 e)) = _
  rw [V_main_arg4]
  unfold bk
  refine congrArg (m ((c : Thread nD τ).loc main_arg4)) (funext fun a => Fin.ext ?_)
  match a with
  | ⟨0, _⟩ => show win0_4.index t (0 : Fin 1) * 1024 + 1 * e.val = e.val; omega

/-- Every point's value-weight block is the whole weight. -/
theorem iblk5_apply (c : Dev nD) (t : Fin cfg0.N) (e : Fin 1024) (d : Fin 1024) :
    iblk m c 5 t (ix2 e d) = Wv m c e d := by
  have hf : win0_5.index t (0 : Fin 2) = 0 ∧ win0_5.index t (1 : Fin 2) = 0 := by
    obtain ⟨-, -, -, f10, f11, f2, f30, f31, f4, f50, f51, f6, -⟩ := idx_facts t
    exact ⟨f50, f51⟩
  unfold iblk
  rw [View.read_apply]
  show V m c main_v3 (((cfg0.win 5).blk t).view.emb (ix2 e d)) = _
  rw [V_v3]
  unfold Wv
  refine congrArg (m ((c : Thread nD τ).loc main_arg5)) (funext fun a => Fin.ext ?_)
  match a with
  | ⟨0, _⟩ => show win0_5.index t (0 : Fin 2) * 1024 + 1 * e.val = e.val; omega
  | ⟨1, _⟩ => show win0_5.index t (1 : Fin 2) * 1024 + 1 * d.val = d.val; omega

/-- Every point's value-bias block is the whole bias. -/
theorem iblk6_apply (c : Dev nD) (t : Fin cfg0.N) (e : Fin 1024) :
    iblk m c 6 t (ix1 e) = bv m c e := by
  have hf : win0_6.index t (0 : Fin 1) = 0 := by
    obtain ⟨-, -, -, f10, f11, f2, f30, f31, f4, f50, f51, f6, -⟩ := idx_facts t
    exact f6
  unfold iblk
  rw [View.read_apply]
  show V m c main_arg6 (((cfg0.win 6).blk t).view.emb (ix1 e)) = _
  rw [V_main_arg6]
  unfold bv
  refine congrArg (m ((c : Thread nD τ).loc main_arg6)) (funext fun a => Fin.ext ?_)
  match a with
  | ⟨0, _⟩ => show win0_6.index t (0 : Fin 1) * 1024 + 1 * e.val = e.val; omega

/-- A tile's row `q'` is row `256·j + q'` of the batch's block, `j` the point's second coordinate. -/
theorem tile_apply (i : grid0.Coords) (x0 : Vec Ideal S1x2048x1024 .bf16) (q' : Fin 256) (e : Fin 1024) :
    tile i x0 (ix3 (0 : Fin 1) q' e) = x0 (ix3 (0 : Fin 1) (row (i 1).val q') e) := by
  have hoff : ∀ j : Fin 8, BitVec.toNat (Scalar.indexCast (Scalar.muli (BitVec.ofNat 32 j.val) 256#32)) = 256 * j.val := by decide
  have hj : BitVec.toNat (Scalar.indexCast (Scalar.muli (BitVec.ofNat 32 (i 1).val) 256#32)) = 256 * (i 1).val := hoff (i 1)
  have hlt : (i 1).val < 8 := (i 1).isLt
  show x0 ((Rect.unit (s := S1x2048x1024) (k0_off1 i) S1x256x1024.size (k0_off1_inb i)).emb (ix3 (0 : Fin 1) q' e)) = _
  refine congrArg x0 (funext fun a => Fin.ext ?_)
  match a with
  | ⟨0, _⟩ => rfl
  | ⟨1, _⟩ =>
    show BitVec.toNat (Scalar.indexCast (Scalar.muli (BitVec.ofNat 32 (i 1).val) 256#32)) + 1 * q'.val = (256 * (i 1).val + q'.val) % 2048
    have := q'.isLt; omega
  | ⟨2, _⟩ => show 0 + 1 * e.val = e.val; omega

/-- One point's step at `(k, d)`, in the specification's words: over the batch's keys, the running sum plus the
    partial attention sum of the point's tile. -/
theorem step_part (i : grid0.Coords) (x0 : Vec Ideal S1x2048x1024 .bf16) (x1 : Vec Ideal S1024x1024 .bf16) (x2 : Vec Ideal S1024 .f32)
    (x5 : Vec Ideal S1024x1024 .bf16) (x6 : Vec Ideal S1024 .f32) (Kv : Vec Ideal S2048x1024 .bf16) (acc : Vec Ideal S2048x1024 .f32)
    (Xf : Fin 2048 → Fin 1024 → EReal) (WqF : Fin 1024 → Fin 1024 → EReal) (bqF : Fin 1024 → EReal)
    (WkF : Fin 1024 → Fin 1024 → EReal) (bkF : Fin 1024 → EReal) (WvF : Fin 1024 → Fin 1024 → EReal) (bvF : Fin 1024 → EReal)
    (h0 : ∀ s d, x0 (ix3 (0 : Fin 1) s d) = Xf s d) (h1 : ∀ e d, x1 (ix2 e d) = WqF e d) (h2 : ∀ e, x2 (ix1 e) = bqF e)
    (h5 : ∀ e d, x5 (ix2 e d) = WvF e d) (h6 : ∀ e, x6 (ix1 e) = bvF e)
    (hK : ∀ k e, Kv (ix2 k e) = lin Xf WkF bkF k e) (k : Fin 2048) (d : Fin 1024) :
    step i x0 x1 x2 x5 x6 Kv acc (ix2 k d) = acc (ix2 k d) + part Xf WqF bqF WkF bkF WvF bvF (i 1).val k d := by
  show k0_pay1 (F := Ideal) (k0_pay6 (tile i x0) x1 x2 Kv) (k0_pay7 (tile i x0) x5) (k0_pay8 x6) acc (ix2 k d) = _
  rw [step_apply]
  refine congrArg (acc (ix2 k d) + ·) (Finset.sum_congr rfl fun q' _ => ?_)
  rw [weights_apply, values_apply]
  have e0 : (fun d => tile i x0 (ix3 (0 : Fin 1) q' d)) = Xf (row (i 1).val q') := funext fun d => (tile_apply i x0 q' d).trans (h0 _ _)
  have e1 : (fun e d => x1 (ix2 e d)) = WqF := funext fun e => funext fun d => h1 e d
  have e2 : (fun e => x2 (ix1 e)) = bqF := funext h2
  have eK : (fun k e => Kv (ix2 k e)) = lin Xf WkF bkF := funext fun k => funext fun e => hK k e
  have hv : (∑ e : Fin 1024, tile i x0 (ix3 (0 : Fin 1) q' e) * x5 (ix2 d e)) + x6 (ix1 d) = lin Xf WvF bvF (row (i 1).val q') d := by
    unfold lin
    rw [h6]
    exact congrArg (· + bvF d) (Finset.sum_congr rfl fun e _ =>
      congrArg₂ (· * ·) ((tile_apply i x0 q' e).trans (h0 _ _)) (h5 d e))
  rw [hv, e0, e1, e2, eK]
  rfl

/-- A linear layer depends on its operands only through their entries. -/
theorem lin_congr {n : ℕ} {x x' : Fin n → Fin 1024 → EReal} {W W' : Fin 1024 → Fin 1024 → EReal} {b b' : Fin 1024 → EReal}
    (hx : ∀ s d, x s d = x' s d) (hW : ∀ e d, W e d = W' e d) (hb : ∀ e, b e = b' e) (s : Fin n) (e : Fin 1024) :
    lin x W b s e = lin x' W' b' s e := by
  have e1 : x = x' := funext fun s => funext fun d => hx s d
  have e2 : W = W' := funext fun e => funext fun d => hW e d
  have e3 : b = b' := funext hb
  rw [e1, e2, e3]

/-- The keys a batch's first point stores, in the specification's words. -/
theorem keys_block (c : Dev nD) (t : Fin cfg0.N) (k : Fin 2048) (e : Fin 1024) :
    k0_pay3 (F := Ideal) (iblk m c 0 t) (iblk m c 3 t) (iblk m c 4 t) (ix2 k e) = lin (X m c (t.val / 8)) (Wk m c) (bk m c) k e :=
  (keys_apply (iblk m c 0 t) (iblk m c 3 t) (iblk m c 4 t) k e).trans
    (lin_congr (iblk0_apply m c t) (iblk3_apply m c t) (iblk4_apply m c t) k e)

/-- A batch's first point: the keys are stored, and the running sum is the first tile's partial sum. -/
theorem first_point (c : Dev nD) (t : Fin cfg0.N) (h0 : t.val % 8 = 0) :
    (∀ k e, (outsAt0 m c t.val t.isLt).2.1 (ix2 k e) = lin (X m c (t.val / 8)) (Wk m c) (bk m c) k e)
    ∧ (∀ k d, (outsAt0 m c t.val t.isLt).2.2 (ix2 k d)
        = ∑ j ∈ Finset.range (t.val % 8 + 1), part (X m c (t.val / 8)) (Wq m c) (bq m c) (Wk m c) (bk m c) (Wv m c) (bv m c) j k d) := by
  have h1 : ¬t.val % 8 = 7 := by omega
  obtain ⟨-, -, -, -, -, -, -, -, -, -, -, -, -, -, -, hj⟩ := idx_facts t
  rw [show outsAt0 m c t.val t.isLt = _ from outsAt0_A m c t h0 h1]
  dsimp only
  refine ⟨fun k e => ?_, fun k d => ?_⟩
  · refine (congrFun (keys_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) ((hcond0_0 t).mpr h0) (fun h => h1 ((hcond0_1 t).mp h))) (ix2 k e)).trans ?_
    exact keys_block m c t k e
  · refine (congrFun (acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) ((hcond0_0 t).mpr h0) (fun h => h1 ((hcond0_1 t).mp h))) (ix2 k d)).trans ?_
    refine (step_part (grid0.coords t) (iblk m c 0 t) (iblk m c 1 t) (iblk m c 2 t) (iblk m c 5 t) (iblk m c 6 t) (k0_pay3 (F := Ideal) (iblk m c 0 t) (iblk m c 3 t) (iblk m c 4 t)) (k0_pay4 (F := Ideal)) (X m c (t.val / 8)) (Wq m c) (bq m c) (Wk m c) (bk m c) (Wv m c) (bv m c) (iblk0_apply m c t) (iblk1_apply m c t) (iblk2_apply m c t) (iblk5_apply m c t) (iblk6_apply m c t) (keys_block m c t) k d).trans ?_
    rw [zero_apply, zero_add, hj, h0, Nat.zero_add, Finset.sum_range_one]

/-- A later point of a batch: the keys stay, and the running sum gains the point's tile. -/
theorem next_point (c : Dev nD) (t : Fin cfg0.N) (h0 : ¬t.val % 8 = 0)
    (ihK : ∀ k e, (outsAt0 m c (t.val - 1) (Nat.lt_of_le_of_lt (Nat.sub_le _ _) t.isLt)).2.1 (ix2 k e) = lin (X m c ((t.val - 1) / 8)) (Wk m c) (bk m c) k e)
    (ihA : ∀ k d, (outsAt0 m c (t.val - 1) (Nat.lt_of_le_of_lt (Nat.sub_le _ _) t.isLt)).2.2 (ix2 k d)
        = ∑ j ∈ Finset.range ((t.val - 1) % 8 + 1), part (X m c ((t.val - 1) / 8)) (Wq m c) (bq m c) (Wk m c) (bk m c) (Wv m c) (bv m c) j k d) :
    (∀ k e, (outsAt0 m c t.val t.isLt).2.1 (ix2 k e) = lin (X m c (t.val / 8)) (Wk m c) (bk m c) k e)
    ∧ (∀ k d, (outsAt0 m c t.val t.isLt).2.2 (ix2 k d)
        = ∑ j ∈ Finset.range (t.val % 8 + 1), part (X m c (t.val / 8)) (Wq m c) (bq m c) (Wk m c) (bk m c) (Wv m c) (bv m c) j k d) := by
  obtain ⟨-, -, -, -, -, -, -, -, -, -, -, -, -, -, -, hj⟩ := idx_facts t
  have e8 : (t.val - 1) / 8 = t.val / 8 := by omega
  have e9 : (t.val - 1) % 8 + 1 = t.val % 8 := by omega
  rw [e8] at ihK ihA
  rw [e9] at ihA
  have hsum : ∀ k d, (outsAt0 m c (t.val - 1) (Nat.lt_of_le_of_lt (Nat.sub_le _ _) t.isLt)).2.2 (ix2 k d) + part (X m c (t.val / 8)) (Wq m c) (bq m c) (Wk m c) (bk m c) (Wv m c) (bv m c) ((grid0.coords t) 1).val k d
      = ∑ j ∈ Finset.range (t.val % 8 + 1), part (X m c (t.val / 8)) (Wq m c) (bq m c) (Wk m c) (bk m c) (Wv m c) (bv m c) j k d := by
    intro k d
    rw [ihA, hj, Finset.sum_range_succ]
  by_cases h1 : t.val % 8 = 7
  · rw [show outsAt0 m c t.val t.isLt = _ from outsAt0_C m c t h0 h1]
    dsimp only
    refine ⟨fun k e => ihK k e, fun k d => ?_⟩
    refine (congrFun (acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1)) (ix2 k d)).trans ?_
    exact (step_part (grid0.coords t) (iblk m c 0 t) (iblk m c 1 t) (iblk m c 2 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 (X m c (t.val / 8)) (Wq m c) (bq m c) (Wk m c) (bk m c) (Wv m c) (bv m c) (iblk0_apply m c t) (iblk1_apply m c t) (iblk2_apply m c t) (iblk5_apply m c t) (iblk6_apply m c t) ihK k d).trans (hsum k d)
  · rw [show outsAt0 m c t.val t.isLt = _ from outsAt0_B m c t h0 h1]
    dsimp only
    refine ⟨fun k e => ihK k e, fun k d => ?_⟩
    refine (congrFun (acc_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) (fun h => h1 ((hcond0_1 t).mp h))) (ix2 k d)).trans ?_
    exact (step_part (grid0.coords t) (iblk m c 0 t) (iblk m c 1 t) (iblk m c 2 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 (X m c (t.val / 8)) (Wq m c) (bq m c) (Wk m c) (bk m c) (Wv m c) (bv m c) (iblk0_apply m c t) (iblk1_apply m c t) (iblk2_apply m c t) (iblk5_apply m c t) (iblk6_apply m c t) ihK k d).trans (hsum k d)

/-- THE INVARIANT. After point `n` the first scratch holds the keys of batch `n / 8` and the second scratch the sum of
    the batch's first `n % 8 + 1` partial attention sums. -/
theorem scratch_after (c : Dev nD) : ∀ (n : ℕ) (hn : n < cfg0.N),
    (∀ k e, (outsAt0 m c n hn).2.1 (ix2 k e) = lin (X m c (n / 8)) (Wk m c) (bk m c) k e)
    ∧ (∀ k d, (outsAt0 m c n hn).2.2 (ix2 k d)
        = ∑ j ∈ Finset.range (n % 8 + 1), part (X m c (n / 8)) (Wq m c) (bq m c) (Wk m c) (bk m c) (Wv m c) (bv m c) j k d) := by
  intro n
  induction n with
  | zero => exact fun hn => first_point m c ⟨0, hn⟩ rfl
  | succ n ih =>
    intro hn
    by_cases h0 : (n + 1) % 8 = 0
    · exact first_point m c ⟨n + 1, hn⟩ h0
    · exact next_point m c ⟨n + 1, hn⟩ h0 (ih (Nat.lt_of_succ_lt hn)).1 (ih (Nat.lt_of_succ_lt hn)).2

/-- THE RESULT ARRAY: at `(b, k, d)` the attention output of batch `b` at `(k, d)`. -/
def G (c : Dev nD) : Buf (Elt Ideal) ((c : Thread nD τ).loc main_v4) :=
  fun i => attn (X m c (i 0).val) (Wq m c) (bq m c) (Wk m c) (bk m c) (Wv m c) (bv m c) ⟨(i 1).val, (i 1).isLt⟩ ⟨(i 2).val, (i 2).isLt⟩

/-- `G` at an index whose coordinates are known. -/
theorem G_at (c : Dev nD) (i : S4x2048x1024.Idx) (b : ℕ) (k : Fin 2048) (d : Fin 1024)
    (hb : (i 0).val = b) (hk : (i 1).val = k.val) (hd : (i 2).val = d.val) :
    G m c i = attn (X m c b) (Wq m c) (bq m c) (Wk m c) (bk m c) (Wv m c) (bv m c) k d := by
  unfold G
  have ek : (⟨(i 1).val, (i 1).isLt⟩ : Fin 2048) = k := Fin.ext hk
  have ed : (⟨(i 2).val, (i 2).isLt⟩ : Fin 1024) = d := Fin.ext hd
  rw [hb, ek, ed]

/-- WHAT A BATCH'S LAST POINT WRITES BACK is the batch's block of `G`: the running sum after the eighth tile is the
    whole attention sum. -/
theorem flushed_eq (c : Dev nD) (t : Fin cfg0.N) (hf : (cfg0.win 7).flush t = true) :
    (dats m 0 c).flushed 7 t = ((cfg0.win 7).blk t).view.read (Elt Ideal) (G m c) := by
  have h1 : t.val % 8 = 7 := (flush0_7 t).mp hf
  have h0 : ¬t.val % 8 = 0 := by omega
  obtain ⟨-, -, -, -, -, -, -, -, -, -, -, -, o0, o1, o2, hj⟩ := idx_facts t
  obtain ⟨ihK, ihA⟩ := scratch_after m c (t.val - 1) (Nat.lt_of_le_of_lt (Nat.sub_le _ _) t.isLt)
  have e8 : (t.val - 1) / 8 = t.val / 8 := by omega
  have e9 : (t.val - 1) % 8 + 1 = t.val % 8 := by omega
  rw [e8] at ihK ihA
  rw [e9] at ihA
  rw [flushed7_C m c t h0 h1]
  funext y
  obtain ⟨u, k, d, rfl⟩ : ∃ (u : Fin 1) (k : Fin 2048) (d : Fin 1024), y = ix3 u k d := ⟨y 0, y 1, y 2, eq_ix3 y⟩
  show out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 (ix3 u k d) = G m c (((cfg0.win 7).blk t).view.emb (ix3 u k d))
  refine (congrFun (out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1)) (ix3 u k d)).trans ?_
  rw [out_apply]
  refine (step_part (grid0.coords t) (iblk m c 0 t) (iblk m c 1 t) (iblk m c 2 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 (X m c (t.val / 8)) (Wq m c) (bq m c) (Wk m c) (bk m c) (Wv m c) (bv m c) (iblk0_apply m c t) (iblk1_apply m c t) (iblk2_apply m c t) (iblk5_apply m c t) (iblk6_apply m c t) ihK k d).trans ?_
  rw [ihA, hj, ← Finset.sum_range_succ, h1]
  have hu : u.val = 0 := by omega
  refine Eq.trans (attn_eq_sum_parts _ _ _ _ _ _ _ k d).symm (G_at m c _ (t.val / 8) k d ?_ ?_ ?_).symm
  · show win0_7.index t (0 : Fin 3) * 1 + 1 * u.val = t.val / 8; omega
  · show win0_7.index t (1 : Fin 3) * 2048 + 1 * k.val = k.val; omega
  · show win0_7.index t (2 : Fin 3) * 1024 + 1 * d.val = d.val; omega

/-- An index of the result array is in point `t`'s block iff each coordinate is in the block's range on its axis. -/
theorem mem_blk7 (t : Fin cfg0.N) (i : S4x2048x1024.Idx) :
    i ∈ ((cfg0.win 7).blk t).view.set ↔ ∀ a : Fin 3, win0_7.index t a * S1x2048x1024.size a ≤ (i a).val ∧ (i a).val < win0_7.index t a * S1x2048x1024.size a + S1x2048x1024.size a := by
  show i ∈ ((View.whole main_v4).slice (win0_7.rect t)).set ↔ _
  rw [View.set_slice_whole, Rect.mem_set_unit]
  exact Iff.rfl

/-- The four written-back blocks cover the result array, so it ends holding `G`: batch `b`'s block is written back at
    point `8·b + 7`. -/
theorem final (c : Dev nD) : (dats m 0 c).arrAt 7 cfg0.N = G m c :=
  (dats m 0 c).arrAt_eq_of_cover 7 (G m c) (flushed_eq m c) fun i => by
    have hN : cfg0.N = 32 := N_0
    have hb : (i 0).val < 4 := (i 0).isLt
    have hk : (i 1).val < 2048 := (i 1).isLt
    have hd : (i 2).val < 1024 := (i 2).isLt
    have hlt : 8 * (i 0).val + 7 < cfg0.N := by rw [hN]; omega
    obtain ⟨-, -, -, -, -, -, -, -, -, -, -, -, o0, o1, o2, -⟩ := idx_facts ⟨8 * (i 0).val + 7, hlt⟩
    have o0' : win0_7.index ⟨8 * (i 0).val + 7, hlt⟩ (0 : Fin 3) = (i 0).val := by rw [o0]; show (8 * (i 0).val + 7) / 8 = (i 0).val; omega
    refine ⟨⟨8 * (i 0).val + 7, hlt⟩, (flush0_7 _).mpr (by show (8 * (i 0).val + 7) % 8 = 7; omega), ?_⟩
    rw [mem_blk7]
    intro a
    match a with
    | ⟨0, _⟩ =>
      show win0_7.index ⟨8 * (i 0).val + 7, hlt⟩ (0 : Fin 3) * 1 ≤ (i 0).val ∧ (i 0).val < win0_7.index ⟨8 * (i 0).val + 7, hlt⟩ (0 : Fin 3) * 1 + 1
      rw [o0']; omega
    | ⟨1, _⟩ =>
      show win0_7.index ⟨8 * (i 0).val + 7, hlt⟩ (1 : Fin 3) * 2048 ≤ (i 1).val ∧ (i 1).val < win0_7.index ⟨8 * (i 0).val + 7, hlt⟩ (1 : Fin 3) * 2048 + 2048
      rw [o1]; omega
    | ⟨2, _⟩ =>
      show win0_7.index ⟨8 * (i 0).val + 7, hlt⟩ (2 : Fin 3) * 1024 ≤ (i 2).val ∧ (i 2).val < win0_7.index ⟨8 * (i 0).val + 7, hlt⟩ (2 : Fin 3) * 1024 + 1024
      rw [o2]; omega

/-- The kernel's run, read: the result array ends at `G`, the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Val
end
-- ==== Proof.RefValue.lean ====
/-
  The reference, read at an index: its result at `(b, k, d)` is the attention output of batch `b` at `(k, d)` — the
  three projections as linear layers, the scores divided by `sqrt 1024` (the product with `1/32`), the softmax over
  the keys with its maximum taken from `-∞` and its sum from `0`, and the aggregation contracted over the queries.
  Each stage is read from the generated per-operation lemmas; the one stage they do not read, the maximum over the
  keys, is a fold of `max` over the key coordinate.
-/
import proofs.«122240_j18691697672866_1_alg».proof.Proof.Gen.ReferenceIdeal.Read
import proofs.«122240_j18691697672866_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

/-- The reference's queries: the linear layer of the batch's rows under the query weight and bias. -/
theorem queries_apply (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (b : Fin 4) (s : Fin 2048) (e : Fin 1024) :
    val_main_v3 (F := Ideal) x0 x1 x2 (ix3 b s e)
      = lin (fun s d => x0 (ix3 b s d)) (fun e d => x1 (ix2 e d)) (fun e => x2 (ix1 e)) s e := by
  have hl : ∀ k : Fin 1024, lidx_main_v0 (ix3 b s e) k = ix3 b s k := fun k =>
    funext fun a => by match a with | ⟨0, _⟩ => rfl | ⟨1, _⟩ => rfl | ⟨2, _⟩ => rfl
  have hr : ∀ k : Fin 1024, ridx_main_v0 (ix3 b s e) k = ix2 e k := fun k =>
    funext fun a => by match a with | ⟨0, _⟩ => rfl | ⟨1, _⟩ => rfl
  have hi : idx_main_v1 (idx_main_v2 (ix3 b s e)) = ix1 e :=
    funext fun a => by match a with | ⟨0, _⟩ => rfl
  rw [val_main_v3_apply, val_main_v0_apply, val_main_v2_apply, val_main_v1_apply, hi]
  simp only [hl, hr]
  rfl

/-- The reference's keys. -/
theorem keys_apply (x0 : (⟨S4x2048x1024, .f32⟩ : BufTy).Contents (Elt Ideal)) (x3 : (⟨S1024x1024, .f32⟩ : BufTy).Contents (Elt Ideal))
    (x4 : (⟨S1024, .f32⟩ : BufTy).Contents (Elt Ideal)) (b : Fin 4) (s : Fin 2048) (e : Fin 1024) :
    val_main_v7 (F := Ideal) x0 x3 x4 (ix3 b s e)
      = lin (fun s d => x0 (ix3 b s d)) (fun e d => x3 (ix2 e d)) (fun e => x4 (ix1 e)) s e := by
  have hl : ∀ k : Fin 1024, lidx_main_v4 (ix3 b s e) k = ix3 b s k := fun k =>
    funext fun a => by match a with | ⟨0, _⟩ => rfl | ⟨1, _⟩ => rfl | ⟨2, _⟩ => rfl
  have hr : ∀ k : Fin 1024, ridx_main_v4 (ix3 b s e) k = ix2 e k := fun k =>
    funext fun a => by match a with | ⟨0, _⟩ => rfl | ⟨1, _⟩ => rfl
  have hi : idx_main_v5 (idx_main_v6 (ix3 b s e)) = ix1 e :=
    funext fun a => by match a with | ⟨0, _⟩ => rfl
  rw [val_main_v7_apply, val_main_v4_apply, val_main_v6_apply, val_main_v5_apply, hi]
  simp only [hl, hr]
  rfl

/-- The reference's values. -/
theorem values_apply (x0 : (⟨S4x2048x1024, .f32⟩ : BufTy).Contents (Elt Ideal)) (x5 : (⟨S1024x1024, .f32⟩ : BufTy).Contents (Elt Ideal))
    (x6 : (⟨S1024, .f32⟩ : BufTy).Contents (Elt Ideal)) (b : Fin 4) (s : Fin 2048) (e : Fin 1024) :
    val_main_v11 (F := Ideal) x0 x5 x6 (ix3 b s e)
      = lin (fun s d => x0 (ix3 b s d)) (fun e d => x5 (ix2 e d)) (fun e => x6 (ix1 e)) s e := by
  have hl : ∀ k : Fin 1024, lidx_main_v8 (ix3 b s e) k = ix3 b s k := fun k =>
    funext fun a => by match a with | ⟨0, _⟩ => rfl | ⟨1, _⟩ => rfl | ⟨2, _⟩ => rfl
  have hr : ∀ k : Fin 1024, ridx_main_v8 (ix3 b s e) k = ix2 e k := fun k =>
    funext fun a => by match a with | ⟨0, _⟩ => rfl | ⟨1, _⟩ => rfl
  have hi : idx_main_v9 (idx_main_v10 (ix3 b s e)) = ix1 e :=
    funext fun a => by match a with | ⟨0, _⟩ => rfl
  rw [val_main_v11_apply, val_main_v8_apply, val_main_v10_apply, val_main_v9_apply, hi]
  simp only [hl, hr]
  rfl

/-- The reference's scaled scores: query row `q` against key row `k` of batch `b`, divided by `sqrt 1024` — the
    product with the constant `1/32`. -/
theorem scores_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 4) (q k : Fin 2048) :
    val_main_v15 (F := Ideal) x0 x1 x2 x3 x4 (ix3 b q k) = (score (lin (fun s d => x0 (ix3 b s d)) (fun e d => x1 (ix2 e d)) (fun e => x2 (ix1 e)) q) (lin (fun s d => x0 (ix3 b s d)) (fun e d => x3 (ix2 e d)) (fun e => x4 (ix1 e)))) k := by
  have hl : ∀ e : Fin 1024, lidx_main_v12 (ix3 b q k) e = ix3 b q e := fun e =>
    funext fun a => by match a with | ⟨0, _⟩ => rfl | ⟨1, _⟩ => rfl | ⟨2, _⟩ => rfl
  have hr : ∀ e : Fin 1024, ridx_main_v12 (ix3 b q k) e = ix3 b k e := fun e =>
    funext fun a => by match a with | ⟨0, _⟩ => rfl | ⟨1, _⟩ => rfl | ⟨2, _⟩ => rfl
  rw [val_main_v15_apply, val_main_v12_apply, val_main_v14_apply, val_main_v13_apply, val_main_cst_apply]
  simp only [hl, hr, queries_apply, keys_apply]
  exact div_sqrt_1024 _

/-- Query row `(b, q)` with the key coordinate put back. -/
theorem lift_key (h : S4x2048x2048.Reduces [2] S4x2048) (b : Fin 4) (q : Fin 2048) (k : Fin (S4x2048x2048.size 2)) :
    h.lift (ix2 b q) k = ix3 b q (⟨k.val, k.isLt⟩ : Fin 2048) := by
  funext c; apply Fin.ext
  fin_cases c <;> rfl

/-- The reference's row maximum: from `-∞` over the keys, and once more against `-∞`. -/
theorem rowmax_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 4) (q : Fin 2048) :
    val_main_v18 (F := Ideal) x0 x1 x2 x3 x4 (ix2 b q) = rowMax (score (lin (fun s d => x0 (ix3 b s d)) (fun e d => x1 (ix2 e d)) (fun e => x2 (ix1 e)) q) (lin (fun s d => x0 (ix3 b s d)) (fun e d => x3 (ix2 e d)) (fun e => x4 (ix1 e)))) := by
  have h : S4x2048x2048.Reduces [2] S4x2048 := by decide
  rw [val_main_v18_apply, val_main_v17_apply, val_main_cst_1_apply]
  unfold val_main_v16 rowMax
  rw [Host.reduce_eq_fold_single FloatOps.maximumf _ _ reducesTo_S4x2048x2048_S4x2048_d2 h h_S_ (ix2 b q)]
  have hf : (val_main_v15 (F := Ideal) x0 x1 x2 x3 x4 ∘ h.lift (ix2 b q)) = (score (lin (fun s d => x0 (ix3 b s d)) (fun e d => x1 (ix2 e d)) (fun e => x2 (ix1 e)) q) (lin (fun s d => x0 (ix3 b s d)) (fun e d => x3 (ix2 e d)) (fun e => x4 (ix1 e)))) :=
    funext fun k => (congrArg (val_main_v15 (F := Ideal) x0 x1 x2 x3 x4) (lift_key h b q k)).trans (scores_apply x0 x1 x2 x3 x4 b q _)
  rw [hf]
  rfl

/-- The reference's exponentials: of the score less the row maximum. -/
theorem exps_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 4) (q k : Fin 2048) :
    val_main_v22 (F := Ideal) x0 x1 x2 x3 x4 (ix3 b q k)
      = Ideal.exp ((score (lin (fun s d => x0 (ix3 b s d)) (fun e d => x1 (ix2 e d)) (fun e => x2 (ix1 e)) q) (lin (fun s d => x0 (ix3 b s d)) (fun e d => x3 (ix2 e d)) (fun e => x4 (ix1 e)))) k - rowMax (score (lin (fun s d => x0 (ix3 b s d)) (fun e d => x1 (ix2 e d)) (fun e => x2 (ix1 e)) q) (lin (fun s d => x0 (ix3 b s d)) (fun e d => x3 (ix2 e d)) (fun e => x4 (ix1 e))))) := by
  have hi : idx_main_v19 (idx_main_v20 (ix3 b q k)) = ix2 b q :=
    funext fun a => by match a with | ⟨0, _⟩ => rfl | ⟨1, _⟩ => rfl
  rw [val_main_v22_apply, val_main_v21_apply, val_main_v20_apply, val_main_v19_apply, hi, scores_apply, rowmax_apply]
  rfl

/-- The reference's softmax weights. -/
theorem weights_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (b : Fin 4) (q k : Fin 2048) :
    val_main_v26 (F := Ideal) x0 x1 x2 x3 x4 (ix3 b q k) = softmax (score (lin (fun s d => x0 (ix3 b s d)) (fun e d => x1 (ix2 e d)) (fun e => x2 (ix1 e)) q) (lin (fun s d => x0 (ix3 b s d)) (fun e d => x3 (ix2 e d)) (fun e => x4 (ix1 e)))) k := by
  have hi : idx_main_v24 (idx_main_v25 (ix3 b q k)) = ix2 b q :=
    funext fun a => by match a with | ⟨0, _⟩ => rfl | ⟨1, _⟩ => rfl
  have hs : ∀ k' : Fin 2048, idx_main_v23 (ix2 b q) k' = ix3 b q k' := fun k' =>
    funext fun a => by match a with | ⟨0, _⟩ => rfl | ⟨1, _⟩ => rfl | ⟨2, _⟩ => rfl
  rw [val_main_v26_apply, val_main_v25_apply, val_main_v24_apply, hi, val_main_v23_apply, val_main_cst_2_apply, exps_apply]
  simp only [hs, exps_apply]
  unfold softmax
  show Ideal.div _ (Ideal.ofBits .f32 0x00000000#32 + _) = _
  rw [ofBits_zero, zero_add]

/-- THE REFERENCE IS THE SPECIFICATION: its result at `(b, k, d)` is the attention output of batch `b` at `(k, d)`. -/
theorem result_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 4) (k : Fin 2048) (d : Fin 1024) :
    val_main_v27 (F := Ideal) x0 x1 x2 x3 x4 x5 x6 (ix3 b k d)
      = attn (fun s d => x0 (ix3 b s d)) (fun e d => x1 (ix2 e d)) (fun e => x2 (ix1 e)) (fun e d => x3 (ix2 e d)) (fun e => x4 (ix1 e))
          (fun e d => x5 (ix2 e d)) (fun e => x6 (ix1 e)) k d := by
  have hl : ∀ q : Fin 2048, lidx_main_v27 (ix3 b k d) q = ix3 b q k := fun q =>
    funext fun a => by match a with | ⟨0, _⟩ => rfl | ⟨1, _⟩ => rfl | ⟨2, _⟩ => rfl
  have hr : ∀ q : Fin 2048, ridx_main_v27 (ix3 b k d) q = ix3 b q d := fun q =>
    funext fun a => by match a with | ⟨0, _⟩ => rfl | ⟨1, _⟩ => rfl | ⟨2, _⟩ => rfl
  rw [val_main_v27_apply]
  simp only [hl, hr, weights_apply, values_apply]
  rfl

end Cert.ReferenceIdeal.RefValue
end
-- ==== Proof.lean ====
/-
  Fused query / key / value projections with scaled dot-product attention and a TRANSPOSED aggregation,
  `out[b, k, d] = Σ_q softmax_k(Q·Kᵀ / 32)[b, q, k] · V[b, q, d]`, over `x : [4, 2048, 1024]`: one kernel launched on a
  4 × 8 grid (a batch per first coordinate, a tile of 256 query rows per second coordinate) against the plain
  reference that forms the whole `[2048, 2048]` weight matrix of a batch and contracts it with the values at once.

  On the extended reals the two programs are one function of the arguments. Operation by operation the kernel's body
  is the reference's (a change of float format is the identity), with two differences of arrangement:
    * the kernel multiplies the scores by the constant `0.03125` where the reference divides by `sqrt 1024`: `1024` is a
      perfect square, `sqrt 1024 = 32`, and dividing by 32 is multiplying by `1/32` on every extended real;
    * the kernel adds up the aggregation tile by tile into a running sum kept across the eight points of a batch and
      writes it out at the batch's last point, where the reference sums over all 2048 queries at once: addition of
      extended reals is commutative and associative, so the eight partial sums are the whole sum.
  Neither step uses finiteness of the inputs.

  The modules: `Spec` (the mathematics and the two laws), `KernelOps` / `KernelPay` (the body's operations and stored
  values at an index), `KernelPieces` (what each control case of the body leaves in the scratch buffers and the output
  block), `KernelValue` (the invariant over the grid's points and the result array), `RefValue` (the reference's result at
  an index); the frames and the two runs are the generated ones.
-/
import proofs.«122240_j18691697672866_1_alg».proof.Defs
import proofs.«122240_j18691697672866_1_alg».proof.Proof.Gen.Kernel
import proofs.«122240_j18691697672866_1_alg».proof.Proof.Gen.Kernel.Frame
import proofs.«122240_j18691697672866_1_alg».proof.Proof.Gen.KernelIdeal
import proofs.«122240_j18691697672866_1_alg».proof.Proof.Gen.KernelIdeal.Frame
import proofs.«122240_j18691697672866_1_alg».proof.Proof.Gen.KernelIdeal.Value
import proofs.«122240_j18691697672866_1_alg».proof.Proof.Gen.ReferenceIdeal
import proofs.«122240_j18691697672866_1_alg».proof.Proof.Gen.ReferenceIdeal.Run
import proofs.«122240_j18691697672866_1_alg».proof.Proof.Gen.ReferenceIdeal.Read
import proofs.«122240_j18691697672866_1_alg».proof.Proof.Gen.Pre_finite_inputs
import proofs.«122240_j18691697672866_1_alg».proof.Proof.KernelValue
import proofs.«122240_j18691697672866_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories agreeing on the arguments both programs end with the attention output of each batch in their result
    arrays: the kernel's result array is `G` (the invariant over the grid), the reference's result at `(b, k, d)` is the
    attention output of batch `b` at `(k, d)`, and `G` is that function of the same arguments. -/
theorem algebraic : Cert.algebraic_KernelIdeal_ReferenceIdeal := by
  intro m ρ m' ρ' _ hagree
  refine ⟨fun c => Cert.KernelIdeal.Val.G m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v27 m' c = Cert.KernelIdeal.Val.G m c
  rw [Cert.ReferenceIdeal.Read.val_main_v27_eq]
  obtain ⟨a0, a1, a2, a3, a4, a5, a6⟩ := hagree c
  rw [a0, a1, a2, a3, a4, a5, a6]
  funext i
  obtain ⟨b, k, d, rfl⟩ : ∃ (b : Fin 4) (k : Fin 2048) (d : Fin 1024), i = ix3 b k d := ⟨i 0, i 1, i 2, eq_ix3 i⟩
  rw [Cert.ReferenceIdeal.RefValue.result_apply]
  refine Eq.trans ?_ (Cert.KernelIdeal.Val.G_at m c (ix3 b k d) b.val k d rfl rfl rfl).symm
  have hb : (⟨b.val % 4, Nat.mod_lt _ (by norm_num)⟩ : Fin 4) = b := Fin.ext (Nat.mod_eq_of_lt b.isLt)
  unfold Cert.KernelIdeal.Val.X Cert.KernelIdeal.Val.Wq Cert.KernelIdeal.Val.bq Cert.KernelIdeal.Val.Wk Cert.KernelIdeal.Val.bk
    Cert.KernelIdeal.Val.Wv Cert.KernelIdeal.Val.bv
  rw [hb]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
